-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x64 .f32) (main_arg3 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S1x64, .f32⟩
  | .hbm, ⟨5, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S400x64, .f32⟩
  | .local _ .vmem, ⟨6, _⟩ => ⟨S400x64, .f32⟩
  | .local _ .vmem, ⟨7, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S10000x64.size a
  hwx0_4 : ∀ i : grid0.Coords, EltTy.bits .f32 = 32 ∨ (Rect.block (s := S10000x64) S400x64.size (cc0_transform_4 i) (hinb0_4 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S10000x64 : Shape := ⟨2, ![10000, 64]⟩
abbrev S1x64 : Shape := ⟨2, ![1, 64]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S10000x64, .f32⟩
  | .hbm, ⟨5, _⟩ => ⟨S10000x64, .f32⟩
  | .hbm, ⟨6, _⟩ => ⟨S1x64, .f32⟩
  | .hbm, ⟨7, _⟩ => ⟨S10000x64, .f32⟩
  | .hbm, ⟨8, _⟩ => ⟨S10000x64, .f32⟩
  | .hbm, ⟨9, _⟩ => ⟨S_, .f32⟩
  | .hbm, ⟨10, _⟩ => ⟨S10000x64, .f32⟩
  | .hbm, ⟨11, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Pieces.lean ====
/-
  What one run of the kernel body leaves behind, as values.

  The body has two cases. At the first grid point it stores the feature product of the two loaded arrays into the scratch
  buffer, reads the buffer back, and stores the output block computed from what it read: so the scratch ends at the
  product, and the output block is the block value of the adjacency rows, that same product and the bias row. At every
  other point nothing is stored into the scratch buffer, and the output block is the block value of the adjacency rows,
  whatever the scratch buffer held on entry, and the bias row. Each store covers its whole buffer from the origin, and
  each load reads a whole buffer from the origin, so reading the stores back gives the stored values themselves.
-/
import proofs.«120147_g71442486001720_cont_9to1_m_357_21_alg».proof.Proof.Gen.KernelIdeal.Frame
import Idealize.ShloMosaic.Lib.Pipeline.Value
import Idealize.ShloMosaic.Lib.Tactic

noncomputable section

namespace Cert.KernelIdeal.GcnValue

open Cert.KernelIdeal Cert.KernelIdeal.Gen
open Idealize.ShloMosaic Idealize.ShloMosaic.TcCoe Idealize.SL.Sem

variable {F : FTy → Type} [FloatOps F]

theorem origin : (![0, 0] : Fin 2 → Nat) = fun _ => 0 := funext fun a => by fin_cases a <;> rfl

/-- First point: the scratch buffer ends at the feature product of the loaded `x` and `w`. -/
theorem scratch_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc0 : cond0_0 i) (x0 : Vec F S10000x128 .f32) (x1 : Vec F S400x10000 .f32) (x2 : Vec F S128x64 .f32) (x3 : Vec F S1x64 .f32) :
    sout0_A_0 c i arg1 harg1 arg2 harg2 arg3 harg3 arg4 harg4 arg5 harg5 arg6 harg6 hc0 x0 x1 x2 x3 = k0_pay1 x0 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero origin]
  simp only [View.readAt_eq_ld, harg1.read_unread, harg3.read_unread, View.ld_unit_zero (S := S10000x128) origin,
    View.ld_unit_zero (S := S128x64) origin]

/-- First point: the output block is the block value over the product just stored (the scratch buffer is read back after
    the store that covers it). -/
theorem block_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc0 : cond0_0 i) (x0 : Vec F S10000x128 .f32) (x1 : Vec F S400x10000 .f32) (x2 : Vec F S128x64 .f32) (x3 : Vec F S1x64 .f32) :
    out0_A_4 c i arg1 harg1 arg2 harg2 arg3 harg3 arg4 harg4 arg5 harg5 arg6 harg6 hc0 x0 x1 x2 x3 = k0_pay2 x1 (k0_pay1 x0 x2) x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero origin, View.readCov_unit_zero (S := S10000x64) _ origin]
  simp only [View.readAt_eq_ld, harg1.read_unread, harg2.read_unread, harg3.read_unread, harg4.read_unread,
    View.ld_unit_zero (S := S10000x128) origin, View.ld_unit_zero (S := S400x10000) origin,
    View.ld_unit_zero (S := S128x64) origin, View.ld_unit_zero (S := S1x64) origin]

/-- Any later point: the output block is the block value over what the scratch buffer held on entry. -/
theorem block_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc0 : ¬cond0_0 i) (x0 : Vec F S10000x128 .f32) (x1 : Vec F S400x10000 .f32) (x2 : Vec F S128x64 .f32) (x3 : Vec F S1x64 .f32) (xs0 : Vec F S10000x64 .f32) :
    out0_B_4 c i arg1 harg1 arg2 harg2 arg3 harg3 arg4 harg4 arg5 harg5 arg6 harg6 hc0 x0 x1 x2 x3 xs0 = k0_pay2 x1 xs0 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  rw [View.canon_unit_zero origin]
  simp only [View.readAt_eq_ld, harg2.read_unread, harg4.read_unread, harg6.read_unread,
    View.ld_unit_zero (S := S400x10000) origin, View.ld_unit_zero (S := S1x64) origin,
    View.ld_unit_zero (S := S10000x64) origin]

end Cert.KernelIdeal.GcnValue

end
-- ==== Proof.Carried.lean ====
/-
  What the scratch buffer and the output block hold after each grid point.

  The scratch buffer is written once, at the first point, with the feature product of that point's blocks of `x` and `w`,
  and no later point writes it: so after EVERY point it holds that product (induction on the point). The output block
  after point `t` is therefore the block value of point `t`'s adjacency rows, that one product, and the bias row — at the
  first point because the body reads back what it has just stored, at a later point because it reads what the point before
  left.
-/
import proofs.«120147_g71442486001720_cont_9to1_m_357_21_alg».proof.Proof.Pieces

noncomputable section

namespace Cert.KernelIdeal.GcnValue

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The first grid point. -/
abbrev first : Fin cfg0.N := ⟨0, by rw [show cfg0.N = 25 from N_0]; decide⟩

/-- The feature product as the first point computes it, from its blocks of `x` and `w`. -/
abbrev product (c : Dev nD) : Vec F S10000x64 .f32 := k0_pay1 (iblk m c 0 first) (iblk m c 2 first)

/-- After every point the scratch buffer holds the product: the first point stores it, no later point writes there. -/
theorem scratch_after (c : Dev nD) (n : ℕ) (h : n < cfg0.N) : (outsAt0 m c n h).2 = product m c := by
  induction n with
  | zero =>
    have e := congrArg Prod.snd (outsAt0_A m c ⟨0, h⟩ (Nat.zero_mod 25))
    dsimp only at e
    exact e.trans
      (scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr (Nat.zero_mod 25)) (iblk m c 0 ⟨0, h⟩) (iblk m c 1 ⟨0, h⟩) (iblk m c 2 ⟨0, h⟩) (iblk m c 3 ⟨0, h⟩))
  | succ n ih =>
    have hN : cfg0.N = 25 := N_0
    have hB : ¬(⟨n + 1, h⟩ : Fin cfg0.N).val % 25 = 0 := by dsimp only; omega
    have e := congrArg Prod.snd (outsAt0_B m c ⟨n + 1, h⟩ hB)
    have e' : (outsAt0 m c (n + 1) h).2 = (outsAt0 m c n (Nat.lt_of_succ_lt h)).2 := e
    exact e'.trans (ih _)

/-- After point `t` the output's staging buffer holds the block value of `t`'s adjacency rows, the product, and the bias
    row. -/
theorem block_after (c : Dev nD) (t : Fin cfg0.N) :
    (outsAt0 m c t.val t.isLt).1 = k0_pay2 (iblk m c 1 t) (product m c) (iblk m c 3 t) := by
  have hN : cfg0.N = 25 := N_0
  by_cases h0 : t.val % 25 = 0
  · have ht : t = first := Fin.ext (by have := t.isLt; show t.val = 0; omega)
    subst ht
    have e := congrArg Prod.fst (outsAt0_A m c first h0)
    dsimp only at e
    exact e.trans
      (block_first c (grid0.coords first) (ms0_0 first) (hs0_0 first) (ms0_1 first) (hs0_1 first) (ms0_2 first) (hs0_2 first) (ms0_3 first) (hs0_3 first) (ms0_4 first) (hs0_4 first) scM0_0 (Memref.isWhole_whole _) ((hcond0_0 first).mpr h0) (iblk m c 0 first) (iblk m c 1 first) (iblk m c 2 first) (iblk m c 3 first))
  · have e := congrArg Prod.fst (outsAt0_B m c t h0)
    dsimp only at e
    refine e.trans ?_
    refine (block_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2).trans ?_
    exact congrArg (fun s => k0_pay2 (iblk m c 1 t) s (iblk m c 3 t))
      (scratch_after m c (t.val - 1) (Nat.lt_of_le_of_lt (Nat.sub_le _ _) t.isLt))

end Cert.KernelIdeal.GcnValue

end
-- ==== Proof.Blocks.lean ====
/-
  What each input window's block holds at a grid point, in terms of the argument arrays.

  The grid has 25 points. The node features `x`, the weights `w` and the bias row are each one block that every point
  sees whole (block index `(0, 0)`); the adjacency is cut into 25 blocks of 400 rows, point `t` seeing rows `400·t` to
  `400·t + 399`; the output is cut the same way. A block's entry `(r, k)` is the array's entry at block index × block size
  plus `(r, k)`. The bias reaches the kernel as a `1 × 64` row: the host reshapes the 64-vector first, which keeps the order
  of the entries.
-/
import proofs.«120147_g71442486001720_cont_9to1_m_357_21_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.GcnValue

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The block indices, decided over the 25 points: only the adjacency's and the output's row-block index moves, and it is
    the point's number. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of point `t`'s block is row `400·t + r` of the array. -/
abbrev rowOf (t : Fin cfg0.N) (r : Fin 400) : Fin 10000 :=
  ⟨400 * t.val + r.val, by have h1 := t.isLt; have h2 : cfg0.N = 25 := N_0; have h3 := r.isLt; omega⟩

/-- Every point's block of `x` is `x`. -/
theorem x_block (c : Dev nD) (t : Fin cfg0.N) (k : Fin 10000) (j : Fin 128) :
    (iblk m c 0 t : Vec F S10000x128 .f32) (ix2 k j) = m ((c : Thread nD τ).loc main_arg0) (ix2 k j) := by
  obtain ⟨e00, e01, -⟩ := block_index t
  unfold iblk
  rw [View.read_apply]
  show V m c main_arg0 _ = _
  rw [V_main_arg0]
  congr 1
  funext a
  apply Fin.ext
  match a with
  | ⟨0, _⟩ => show win0_0.index t (0 : Fin 2) * 10000 + 1 * k.val = k.val; rw [e00]; omega
  | ⟨1, _⟩ => show win0_0.index t (1 : Fin 2) * 128 + 1 * j.val = j.val; rw [e01]; omega

/-- Point `t`'s block of the adjacency is its rows `400·t …`. -/
theorem adj_block (c : Dev nD) (t : Fin cfg0.N) (r : Fin 400) (k : Fin 10000) :
    (iblk m c 1 t : Vec F S400x10000 .f32) (ix2 r k) = m ((c : Thread nD τ).loc main_arg1) (ix2 (rowOf t r) k) := by
  obtain ⟨-, -, e10, e11, -⟩ := block_index t
  unfold iblk
  rw [View.read_apply]
  show V m c main_arg1 _ = _
  rw [V_main_arg1]
  congr 1
  funext a
  apply Fin.ext
  match a with
  | ⟨0, _⟩ => show win0_1.index t (0 : Fin 2) * 400 + 1 * r.val = 400 * t.val + r.val; rw [e10]; omega
  | ⟨1, _⟩ => show win0_1.index t (1 : Fin 2) * 10000 + 1 * k.val = k.val; rw [e11]; omega

/-- Every point's block of `w` is `w`. -/
theorem w_block (c : Dev nD) (t : Fin cfg0.N) (j : Fin 128) (n : Fin 64) :
    (iblk m c 2 t : Vec F S128x64 .f32) (ix2 j n) = m ((c : Thread nD τ).loc main_arg2) (ix2 j n) := by
  obtain ⟨-, -, -, -, e20, e21, -⟩ := block_index t
  unfold iblk
  rw [View.read_apply]
  show V m c main_arg2 _ = _
  rw [V_main_arg2]
  congr 1
  funext a
  apply Fin.ext
  match a with
  | ⟨0, _⟩ => show win0_2.index t (0 : Fin 2) * 128 + 1 * j.val = j.val; rw [e20]; omega
  | ⟨1, _⟩ => show win0_2.index t (1 : Fin 2) * 64 + 1 * n.val = n.val; rw [e21]; omega

/-- The bias row the region finds is the host's reshape of the bias vector. -/
theorem bias_row (c : Dev nD) :
    (V m c main_call0_v0 : S1x64.Idx → Elt F .f32) = shapeCast S1x64 (m ((c : Thread nD τ).loc main_arg3)) shapeCasts_S64_S1x64 := by
  dsimp only [Gen.V, Gen.hostOps0]
  after_results
  rfl

/-- Every point's block of the bias row is the bias vector, entry by entry. -/
theorem b_block (c : Dev nD) (t : Fin cfg0.N) (q : Fin 64) :
    (iblk m c 3 t : Vec F S1x64 .f32) (ix2 (0 : Fin 1) q) = m ((c : Thread nD τ).loc main_arg3) (ix1 q) := by
  obtain ⟨-, -, -, -, -, -, e30, e31, -⟩ := block_index t
  unfold iblk
  rw [View.read_apply]
  show V m c main_call0_v0 _ = _
  rw [bias_row]
  refine Eq.trans ?_ (shapeCast_a_1a_apply (m ((c : Thread nD τ).loc main_arg3)) shapeCasts_S64_S1x64 (0 : Fin 1) q)
  congr 1
  funext a
  apply Fin.ext
  match a with
  | ⟨0, _⟩ => show win0_3.index t (0 : Fin 2) * 1 + 1 * 0 = 0; rw [e30]
  | ⟨1, _⟩ => show win0_3.index t (1 : Fin 2) * 64 + 1 * q.val = q.val; rw [e31]; omega

end Cert.KernelIdeal.GcnValue

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.Layer.lean ====
/-
  One graph-convolution layer, entry by entry, over the extended reals.

  With node features `x` (10000 × 128), a dense adjacency `adj` (10000 × 10000), weights `w` (128 × 64) and a bias `b`
  (64 entries): the feature product `s = x · w` has `s[k, n] = ∑ⱼ x[k, j] · w[j, n]`, and the layer's output is
  `out[p, q] = max (∑ₖ adj[p, k] · s[k, q] + b[q]) 0`. The grouping is the one both programs compute — the inner sum is
  formed first, then the outer one —, so no factor is moved across a sum and no entry needs to be finite.
-/
import Idealize.ShloMosaic.PureOps.Ideal
import Idealize.ShloMosaic.Lib.ValueIdx

noncomputable section

namespace Cert.GcnLayer

open Idealize.ShloMosaic Idealize.ShloMosaic.ValueIdx

/-- Entry `(k, n)` of the feature product `x · w`: the sum over the 128 input features. -/
def support (x : (⟨2, ![10000, 128]⟩ : Shape).Idx → EReal) (w : (⟨2, ![128, 64]⟩ : Shape).Idx → EReal)
    (k : Fin 10000) (n : Fin 64) : EReal :=
  ∑ j : Fin 128, x (ix2 k j) * w (ix2 j n)

/-- Entry `(p, q)` of the layer: row `p` of the adjacency against column `q` of the feature product, plus the bias at
    `q`, cut off below at zero (the zero is the word `+0.0` that both programs print). -/
def entry (x : (⟨2, ![10000, 128]⟩ : Shape).Idx → EReal) (adj : (⟨2, ![10000, 10000]⟩ : Shape).Idx → EReal)
    (w : (⟨2, ![128, 64]⟩ : Shape).Idx → EReal) (b : (⟨1, ![64]⟩ : Shape).Idx → EReal) (p : Fin 10000) (q : Fin 64) : EReal :=
  max ((∑ k : Fin 10000, adj (ix2 p k) * support x w k q) + b (ix1 q)) (Ideal.ofBits .f32 0x00000000#32)

/-- The layer's output array. -/
def out (x : (⟨2, ![10000, 128]⟩ : Shape).Idx → EReal) (adj : (⟨2, ![10000, 10000]⟩ : Shape).Idx → EReal)
    (w : (⟨2, ![128, 64]⟩ : Shape).Idx → EReal) (b : (⟨1, ![64]⟩ : Shape).Idx → EReal) :
    (⟨2, ![10000, 64]⟩ : Shape).Idx → EReal :=
  fun i => entry x adj w b (i 0) (i 1)

end Cert.GcnLayer

end
-- ==== Proof.Payload.lean ====
/-
  What the kernel body's two stored values are, entry by entry, at the ideal values.

  The body stores two things. At the first grid point it stores the feature product `x · w` into the scratch buffer: a
  matrix product into a zero accumulator, so entry `(k, n)` is `∑ⱼ x[k, j] · w[j, n]`. At every point it stores the output
  block: the point's 400 rows of the adjacency times the scratch buffer (again into a zero accumulator), plus the bias row
  spread down the 400 rows, cut off below at zero; entry `(r, q)` of the block is `max (∑ₖ a[r, k] · s[k, q] + b[0, q]) 0`.
  Both products contract one axis, and the contraction index is that axis's coordinate.
-/
import proofs.«120147_g71442486001720_cont_9to1_m_357_21_alg».proof.Proof.Gen.KernelIdeal.Skeleton
import proofs.«120147_g71442486001720_cont_9to1_m_357_21_alg».proof.Proof.LibContract
import proofs.«120147_g71442486001720_cont_9to1_m_357_21_alg».proof.Proof.Layer
import Idealize.ShloMosaic.Lib.Pipeline.Value
import Idealize.ShloMosaic.Lib.ValueLayout

noncomputable section

namespace Cert.KernelIdeal.GcnValue

open Cert.KernelIdeal Cert.KernelIdeal.Gen
open Idealize.ShloMosaic Idealize.ShloMosaic.ValueIdx Cert.GcnLayer

/-! ## The feature product's operand indices: output `(k, n)`, contraction coordinate `j`, reads `x[k, j]` and `w[j, n]` -/

theorem xw_lhs0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem xw_lhs1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem xw_rhs0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem xw_rhs1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem xw_lhs (k : Fin 10000) (n : Fin 64) (j : Fin 128) :
    dot_S10000x128_S128x64_S10000x64_1_0_0_1_n_n.lhsIdx (ix2 k n) ((contrEquiv1 dot_S10000x128_S128x64_S10000x64_1_0_0_1_n_n 128 rfl rfl).symm j) = ix2 k j :=
  funext fun a => Fin.ext (by
    match a with
    | ⟨0, _⟩ => exact xw_lhs0 _ _
    | ⟨1, _⟩ => exact (xw_lhs1 _ _).trans (contrEquiv1_symm_val dot_S10000x128_S128x64_S10000x64_1_0_0_1_n_n 128 rfl rfl j))
theorem xw_rhs (k : Fin 10000) (n : Fin 64) (j : Fin 128) :
    dot_S10000x128_S128x64_S10000x64_1_0_0_1_n_n.rhsIdx (ix2 k n) ((contrEquiv1 dot_S10000x128_S128x64_S10000x64_1_0_0_1_n_n 128 rfl rfl).symm j) = ix2 j n :=
  funext fun a => Fin.ext (by
    match a with
    | ⟨0, _⟩ => exact (xw_rhs0 _ _).trans (contrEquiv1_symm_val dot_S10000x128_S128x64_S10000x64_1_0_0_1_n_n 128 rfl rfl j)
    | ⟨1, _⟩ => exact xw_rhs1 _ _)

/-! ## The block product's operand indices: output `(r, q)`, contraction coordinate `k`, reads `a[r, k]` and `s[k, q]` -/

theorem as_lhs0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem as_lhs1 (i : S400x64.Idx) (q : dot_S400x10000_S10000x64_S400x64_1_0_0_1_n_n.contr.Idx) : (dot_S400x10000_S10000x64_S400x64_1_0_0_1_n_n.lhsIdx i q 1).val = (q ⟨0, by decide⟩).val :=
  dot_S400x10000_S10000x64_S400x64_1_0_0_1_n_n.lhsIdx_val_of_single rfl i q
theorem as_rhs0 (i : S400x64.Idx) (q : dot_S400x10000_S10000x64_S400x64_1_0_0_1_n_n.contr.Idx) : (dot_S400x10000_S10000x64_S400x64_1_0_0_1_n_n.rhsIdx i q 0).val = (q ⟨0, by decide⟩).val :=
  dot_S400x10000_S10000x64_S400x64_1_0_0_1_n_n.rhsIdx_val_of_single rfl i q
theorem as_rhs1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

theorem as_lhs (r : Fin 400) (q : Fin 64) (k : Fin 10000) :
    dot_S400x10000_S10000x64_S400x64_1_0_0_1_n_n.lhsIdx (ix2 r q) ((contrEquiv1 dot_S400x10000_S10000x64_S400x64_1_0_0_1_n_n 10000 rfl rfl).symm k) = ix2 r k :=
  funext fun a => Fin.ext (by
    match a with
    | ⟨0, _⟩ => exact as_lhs0 _ _
    | ⟨1, _⟩ => exact (as_lhs1 _ _).trans (contrEquiv1_symm_val dot_S400x10000_S10000x64_S400x64_1_0_0_1_n_n 10000 rfl rfl k))
theorem as_rhs (r : Fin 400) (q : Fin 64) (k : Fin 10000) :
    dot_S400x10000_S10000x64_S400x64_1_0_0_1_n_n.rhsIdx (ix2 r q) ((contrEquiv1 dot_S400x10000_S10000x64_S400x64_1_0_0_1_n_n 10000 rfl rfl).symm k) = ix2 k q :=
  funext fun a => Fin.ext (by
    match a with
    | ⟨0, _⟩ => exact (as_rhs0 _ _).trans (contrEquiv1_symm_val dot_S400x10000_S10000x64_S400x64_1_0_0_1_n_n 10000 rfl rfl k)
    | ⟨1, _⟩ => exact as_rhs1 _ _)

/-! ## The two stored values -/

/-- The value stored into the scratch buffer is the feature product of the two loaded arrays. -/
theorem scratch_value_apply (xs : Vec Ideal S10000x128 .f32) (ws : Vec Ideal S128x64 .f32) (k : Fin 10000) (n : Fin 64) :
    k0_pay1 (F := Ideal) xs ws (ix2 k n) = support xs ws k n := by
  show shapeCast S10000x64 (matmul (F := Ideal) (φ₁ := .f32) (φ₂ := .f32) dot_S10000x128_S128x64_S10000x64_1_0_0_1_n_n none xs ws (constant S10000x64 .f32 0x00000000#32))
    shapeCasts_S10000x64_S10000x64 (ix2 k n) = _
  rw [shapeCast_self]
  exact ContractSingle.matmul_zero_single dot_S10000x128_S128x64_S10000x64_1_0_0_1_n_n none 128 rfl rfl xs ws (ix2 k n) _ _
    (fun j => congrArg xs (xw_lhs k n j)) (fun j => congrArg ws (xw_rhs k n j))

/-- The value stored into the output block: the adjacency rows against the scratch buffer, plus the bias row, cut off below
    at zero. -/
theorem block_value_apply (a : Vec Ideal S400x10000 .f32) (s : Vec Ideal S10000x64 .f32) (b : Vec Ideal S1x64 .f32)
    (r : Fin 400) (q : Fin 64) :
    k0_pay2 (F := Ideal) a s b (ix2 r q)
      = max ((∑ k : Fin 10000, a (ix2 r k) * s (ix2 k q)) + b (ix2 (0 : Fin 1) q)) (Ideal.ofBits .f32 0x00000000#32) := by
  show max (matmul (F := Ideal) (φ₁ := .f32) (φ₂ := .f32) dot_S400x10000_S10000x64_S400x64_1_0_0_1_n_n none a s (constant S400x64 .f32 0x00000000#32) (ix2 r q)
      + broadcastTo S400x64 (shapeCast S1x64 b shapeCasts_S1x64_S1x64) broadcasts_S1x64_S400x64 (ix2 r q))
    (Ideal.ofBits .f32 0x00000000#32) = _
  rw [shapeCast_self, broadcastTo_1b_ab_apply]
  exact congrArg (fun z => max (z + b (ix2 (0 : Fin 1) q)) (Ideal.ofBits .f32 0x00000000#32))
    (ContractSingle.matmul_zero_single dot_S400x10000_S10000x64_S400x64_1_0_0_1_n_n none 10000 rfl rfl a s (ix2 r q) _ _
      (fun k => congrArg a (as_lhs r q k)) (fun k => congrArg s (as_rhs r q k)))

end Cert.KernelIdeal.GcnValue

end
-- ==== Proof.KernelLayer.lean ====
/-
  The kernel's result array is the layer's output array.

  After grid point `t` the output's staging buffer holds the block value of `t`'s 400 adjacency rows, the feature product,
  and the bias row. Its entry `(r, q)` is `max (∑ₖ a[r, k] · s[k, q] + b[0, q]) 0` where `a[r, k] = adj[400·t + r, k]`,
  `s[k, q] = ∑ⱼ x[k, j] · w[j, q]` and `b[0, q]` is the bias at `q`: the layer's entry `(400·t + r, q)`. Point `t` writes
  that buffer back to rows `400·t … 400·t + 399` of the result, and row `p` of the result lies in the block of point
  `p / 400`: the 25 blocks cover the result, which therefore ends at the layer's output array.
-/
import proofs.«120147_g71442486001720_cont_9to1_m_357_21_alg».proof.Proof.Carried
import proofs.«120147_g71442486001720_cont_9to1_m_357_21_alg».proof.Proof.Blocks
import proofs.«120147_g71442486001720_cont_9to1_m_357_21_alg».proof.Proof.Payload
import proofs.«120147_g71442486001720_cont_9to1_m_357_21_alg».proof.Proof.Gen.KernelIdeal.Value

noncomputable section

namespace Cert.KernelIdeal.GcnValue

open Cert.KernelIdeal Cert.KernelIdeal.Gen
open Idealize.ShloMosaic Idealize.ShloMosaic.TcCoe Idealize.SL.Sem Idealize.ShloMosaic.ValueIdx Cert.GcnLayer
open Idealize.ShloMosaic.Pipeline (Dat)

variable (m : (ℓ : Loc nD τ sig) → Buf (Elt Ideal) ℓ) (ρ : Dev nD → PrngReg)

/-- The layer's output array of the four argument arrays as launched, as contents of the result array. -/
abbrev result (c : Dev nD) : Buf (Elt Ideal) ((c : Thread nD τ).loc main_v0) :=
  out (m ((c : Thread nD τ).loc main_arg0)) (m ((c : Thread nD τ).loc main_arg1)) (m ((c : Thread nD τ).loc main_arg2)) (m ((c : Thread nD τ).loc main_arg3))

/-- The product the scratch buffer holds is the feature product of the whole arrays `x` and `w`. -/
theorem product_apply (c : Dev nD) (k : Fin 10000) (q : Fin 64) :
    product m c (ix2 k q) = support (m ((c : Thread nD τ).loc main_arg0)) (m ((c : Thread nD τ).loc main_arg2)) k q := by
  refine (scratch_value_apply (iblk m c 0 first) (iblk m c 2 first) k q).trans ?_
  unfold support
  exact Finset.sum_congr rfl fun j _ => congrArg₂ (fun u v : EReal => u * v) (x_block m c first k j) (w_block m c first j q)

/-- A block value whose adjacency rows are row `p` onward of `adj`, whose second operand is the feature product of `x`
    and `w`, and whose bias row is `b`, has the layer's entry `(p, q)` at `(r, q)`. -/
theorem entry_of_block (X : (⟨2, ![10000, 128]⟩ : Shape).Idx → EReal) (A : (⟨2, ![10000, 10000]⟩ : Shape).Idx → EReal)
    (W : (⟨2, ![128, 64]⟩ : Shape).Idx → EReal) (B : (⟨1, ![64]⟩ : Shape).Idx → EReal)
    (a : Vec Ideal S400x10000 .f32) (s : Vec Ideal S10000x64 .f32) (b : Vec Ideal S1x64 .f32)
    (p : Fin 10000) (r : Fin 400) (q : Fin 64)
    (ha : ∀ k : Fin 10000, a (ix2 r k) = A (ix2 p k)) (hs : ∀ k : Fin 10000, s (ix2 k q) = support X W k q)
    (hb : b (ix2 (0 : Fin 1) q) = B (ix1 q)) :
    k0_pay2 (F := Ideal) a s b (ix2 r q) = entry X A W B p q := by
  refine (block_value_apply a s b r q).trans ?_
  unfold entry
  rw [hb, Finset.sum_congr rfl fun k _ => by rw [ha k, hs k]]

/-- Entry `(r, q)` of the output block after point `t` is the layer's entry `(400·t + r, q)`. -/
theorem block_entry (c : Dev nD) (t : Fin cfg0.N) (r : Fin 400) (q : Fin 64) :
    k0_pay2 (F := Ideal) (iblk m c 1 t) (product m c) (iblk m c 3 t) (ix2 r q)
      = entry (m ((c : Thread nD τ).loc main_arg0)) (m ((c : Thread nD τ).loc main_arg1)) (m ((c : Thread nD τ).loc main_arg2)) (m ((c : Thread nD τ).loc main_arg3)) (rowOf t r) q :=
  entry_of_block (m ((c : Thread nD τ).loc main_arg0)) (m ((c : Thread nD τ).loc main_arg1)) (m ((c : Thread nD τ).loc main_arg2)) (m ((c : Thread nD τ).loc main_arg3))
    (iblk m c 1 t) (product m c) (iblk m c 3 t) (rowOf t r) r q
    (fun k => adj_block m c t r k) (fun k => product_apply m c k q) (b_block m c t q)

/-- What point `t` writes back is its block of the layer's output array. -/
theorem flushed_eq (c : Dev nD) (t : Fin cfg0.N) :
    (dats m 0 c).flushed 4 t = ((cfg0.win 4).blk t).view.read (Elt Ideal) (result m c) := by
  rw [Cert.KernelIdeal.Value.flushed4, block_after m c t]
  have key : ∀ y : S400x64.Idx, k0_pay2 (F := Ideal) (iblk m c 1 t) (product m c) (iblk m c 3 t) y
      = result m c (((cfg0.win 4).blk t).view.emb y) := by
    intro y
    obtain ⟨r, q, rfl⟩ : ∃ (r : Fin 400) (q : Fin 64), y = ix2 r q := ⟨y 0, y 1, eq_ix2 y⟩
    have hp : ((cfg0.win 4).blk t).view.emb (ix2 r q) = ix2 (rowOf t r) q := by
      obtain ⟨-, -, -, -, -, -, -, -, e40, e41⟩ := block_index t
      funext a
      apply Fin.ext
      match a with
      | ⟨0, _⟩ => show win0_4.index t (0 : Fin 2) * 400 + 1 * r.val = 400 * t.val + r.val; rw [e40]; omega
      | ⟨1, _⟩ => show win0_4.index t (1 : Fin 2) * 64 + 1 * q.val = q.val; rw [e41]; omega
    rw [hp]
    exact block_entry m c t r q
  funext y
  exact key y

/-- An index of the result is in point `t`'s block iff each coordinate is in the block's range on its axis. -/
theorem mem_block (t : Fin cfg0.N) (i : S10000x64.Idx) :
    i ∈ ((cfg0.win 4).blk t).view.set ↔ ∀ a : Fin 2, win0_4.index t a * S400x64.size a ≤ (i a).val ∧ (i a).val < win0_4.index t a * S400x64.size a + S400x64.size a := by
  show i ∈ ((View.whole main_v0).slice (win0_4.rect t)).set ↔ _
  rw [View.set_slice_whole, Rect.mem_set_unit]
  exact Iff.rfl

/-- Row `p` of the result is in the block of point `p / 400`. -/
theorem covered (i : S10000x64.Idx) : ∃ t : Fin cfg0.N, (cfg0.win 4).flush t = true ∧ i ∈ ((cfg0.win 4).blk t).view.set := by
  have hN : cfg0.N = 25 := N_0
  have hi0 : (i 0).val < 10000 := (i 0).isLt
  have hi1 : (i 1).val < 64 := (i 1).isLt
  have hlt : (i 0).val / 400 < cfg0.N := by omega
  obtain ⟨-, -, -, -, -, -, -, -, e40, e41⟩ := block_index ⟨(i 0).val / 400, hlt⟩
  have e40' : win0_4.index ⟨(i 0).val / 400, hlt⟩ (0 : Fin 2) = (i 0).val / 400 := e40
  refine ⟨⟨(i 0).val / 400, hlt⟩, flush0_4 _, ?_⟩
  rw [mem_block]
  intro a
  match a with
  | ⟨0, _⟩ =>
    show win0_4.index ⟨(i 0).val / 400, hlt⟩ (0 : Fin 2) * 400 ≤ (i 0).val ∧ (i 0).val < win0_4.index ⟨(i 0).val / 400, hlt⟩ (0 : Fin 2) * 400 + 400
    rw [e40']; omega
  | ⟨1, _⟩ =>
    show win0_4.index ⟨(i 0).val / 400, hlt⟩ (1 : Fin 2) * 64 ≤ (i 1).val ∧ (i 1).val < win0_4.index ⟨(i 0).val / 400, hlt⟩ (1 : Fin 2) * 64 + 64
    rw [e41]; omega

/-- So the result array ends at the layer's output array. -/
theorem final (c : Dev nD) : (dats m 0 c).arrAt 4 cfg0.N = result m c :=
  (dats m 0 c).arrAt_eq_of_cover 4 (result m c) (fun t _ => flushed_eq m c t) covered

/-- The kernel's run, read: the result array at the layer's output array of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.GcnValue

end
-- ==== Proof.RefLayer.lean ====
/-
  The reference computes the layer.

  Its result is `max (adj · (x · w) + b, 0)` written as host operations: two contractions over one axis each (the inner
  one over the 128 features, the outer one over the 10000 nodes), the bias spread first to one row and then to every row,
  an addition and a maximum with the zero array. Read at an output index `(p, q)` each operation asks its operands at the
  indices below, and what comes out is the layer's entry `(p, q)` term for term.
-/
import proofs.«120147_g71442486001720_cont_9to1_m_357_21_alg».proof.Proof.Gen.ReferenceIdeal.Read
import proofs.«120147_g71442486001720_cont_9to1_m_357_21_alg».proof.Proof.Layer

noncomputable section

namespace Cert.ReferenceIdeal.GcnValue

open Cert.ReferenceIdeal Cert.ReferenceIdeal.Gen Cert.ReferenceIdeal.Read
open Idealize.ShloMosaic Idealize.ShloMosaic.ValueIdx Cert.GcnLayer

/-- The outer contraction at `(p, q)`, term `k`, reads the adjacency at `(p, k)`, -/
theorem adj_at (i : S10000x64.Idx) (k : Fin 10000) : lidx_main_v1 i k = ix2 (i 0) k :=
  funext fun a => Fin.ext (by match a with | ⟨0, _⟩ => rfl | ⟨1, _⟩ => rfl)

/-- and the feature product at `(k, q)`: there the inner contraction's term `j` reads `x` at `(k, j)` -/
theorem x_at (i : S10000x64.Idx) (k : Fin 10000) (j : Fin 128) : lidx_main_v0 (ridx_main_v1 i k) j = ix2 k j :=
  funext fun a => Fin.ext (by match a with | ⟨0, _⟩ => rfl | ⟨1, _⟩ => rfl)

/-- and `w` at `(j, q)`. -/
theorem w_at (i : S10000x64.Idx) (k : Fin 10000) (j : Fin 128) : ridx_main_v0 (ridx_main_v1 i k) j = ix2 j (i 1) :=
  funext fun a => Fin.ext (by match a with | ⟨0, _⟩ => rfl | ⟨1, _⟩ => rfl)

/-- The bias, spread to one row and then to all rows, is read at `q`. -/
theorem b_at (i : S10000x64.Idx) : idx_main_v2 (idx_main_v3 i) = ix1 (i 1) :=
  funext fun a => Fin.ext (by match a with | ⟨0, _⟩ => rfl)

/-- The reference's last stage is the layer's output array of the four arguments. -/
theorem result_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal)) :
    val_main_v5 (F := Ideal) x0 x1 x2 x3 = out x0 x1 x2 x3 := by
  funext i
  rw [val_main_v5_apply, val_main_v4_apply, val_main_v1_apply, val_main_v3_apply, val_main_v2_apply,
    val_main_call0_v0_apply, val_main_call0_cst_apply]
  have hs : ∀ k : Fin 10000, x1 (lidx_main_v1 i k) * val_main_v0 (F := Ideal) x0 x2 (ridx_main_v1 i k)
      = x1 (ix2 (i 0) k) * support x0 x2 k (i 1) := fun k => by
    rw [val_main_v0_apply, adj_at]
    unfold support
    exact congrArg _ (Finset.sum_congr rfl fun j _ => by rw [x_at, w_at]; rfl)
  rw [Finset.sum_congr rfl fun k _ => hs k, b_at]
  rfl

end Cert.ReferenceIdeal.GcnValue

end
-- ==== Proof.lean ====
/-
  A graph-convolution layer, `out = max (adj · (x · w) + b, 0)`, computed two ways, and the two agree over the extended
  reals.

  The kernel walks the 10000 output rows in 25 blocks of 400. At the first block it forms the feature product `x · w`
  once, into a buffer it keeps for the whole walk; at every block it multiplies that block's 400 adjacency rows by the kept
  product, adds the bias row, cuts off below at zero, and writes the 400 rows back. The reference forms the same feature
  product, multiplies the whole adjacency by it, adds the bias spread to every row and takes the maximum with zero.

  Entry `(p, q)` of either result is `max (∑ₖ adj[p, k] · (∑ⱼ x[k, j] · w[j, q]) + b[q]) 0` (module Layer): the kernel's,
  because the kept buffer holds the product after every block (module Carried) and the blocks cover the result (module
  KernelLayer); the reference's, operation by operation (module RefLayer). A matrix product into a zero accumulator and the
  host's contraction are the same sum, and the sums are grouped alike on both sides, so no law that could fail at an
  infinite entry is used and the precondition (finite inputs) is never opened. Neither program changes its arguments, and
  the idealised kernel is the kernel's own text read at the exact values (no rewrite was applied).
-/
import proofs.«120147_g71442486001720_cont_9to1_m_357_21_alg».proof.Defs
import proofs.«120147_g71442486001720_cont_9to1_m_357_21_alg».proof.Proof.Gen.Kernel
import proofs.«120147_g71442486001720_cont_9to1_m_357_21_alg».proof.Proof.Gen.Kernel.Skeleton
import proofs.«120147_g71442486001720_cont_9to1_m_357_21_alg».proof.Proof.Gen.Kernel.Launch
import proofs.«120147_g71442486001720_cont_9to1_m_357_21_alg».proof.Proof.Gen.Kernel.Points
import proofs.«120147_g71442486001720_cont_9to1_m_357_21_alg».proof.Proof.Gen.Kernel.Frame
import proofs.«120147_g71442486001720_cont_9to1_m_357_21_alg».proof.Proof.Gen.KernelIdeal
import proofs.«120147_g71442486001720_cont_9to1_m_357_21_alg».proof.Proof.Gen.KernelIdeal.Skeleton
import proofs.«120147_g71442486001720_cont_9to1_m_357_21_alg».proof.Proof.Gen.KernelIdeal.Launch
import proofs.«120147_g71442486001720_cont_9to1_m_357_21_alg».proof.Proof.Gen.KernelIdeal.Points
import proofs.«120147_g71442486001720_cont_9to1_m_357_21_alg».proof.Proof.Gen.KernelIdeal.Frame
import proofs.«120147_g71442486001720_cont_9to1_m_357_21_alg».proof.Proof.Gen.KernelIdeal.Value
import proofs.«120147_g71442486001720_cont_9to1_m_357_21_alg».proof.Proof.Gen.ReferenceIdeal
import proofs.«120147_g71442486001720_cont_9to1_m_357_21_alg».proof.Proof.Gen.ReferenceIdeal.Run
import proofs.«120147_g71442486001720_cont_9to1_m_357_21_alg».proof.Proof.Gen.ReferenceIdeal.Read
import proofs.«120147_g71442486001720_cont_9to1_m_357_21_alg».proof.Proof.Gen.Pre_finite_inputs
import proofs.«120147_g71442486001720_cont_9to1_m_357_21_alg».proof.Proof.KernelLayer
import proofs.«120147_g71442486001720_cont_9to1_m_357_21_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs to the end and leaves its four arguments as they were. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading: there is nothing to preserve. -/
theorem preserves : Cert.preserves_Kernel_KernelIdeal := trivial

/-- From memories that agree on the four arguments both programs end with the layer's output array of those arguments. -/
theorem algebraic : Cert.algebraic_KernelIdeal_ReferenceIdeal := by
  intro m ρ m' ρ' _ hagree
  refine ⟨fun c => Cert.KernelIdeal.GcnValue.result m c, Cert.KernelIdeal.GcnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.GcnValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
